-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 48
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000x512, .bf16⟩
  | .hbm, ⟨9, _⟩ => ⟨S512x256, .bf16⟩
  | .hbm, ⟨10, _⟩ => ⟨S50000x256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S256x64, .bf16⟩
  | .hbm, ⟨28, _⟩ => ⟨S1x256, .f32⟩
  | .hbm, ⟨29, _⟩ => ⟨S50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S1x64, .f32⟩
  | .hbm, ⟨47, _⟩ => ⟨S50000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x64, .bf16⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000x256, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Layers.lean ====
/-
  The layers of the two-layer graph convolution as whole-array functions, in the host's spelling.

  With x the [50000, 512] feature array, (src, dst, wgt) the 800000 weighted edges, W1, b1, W2, b2 the weights:

    product1   x · W1                                                    [50000, 256]
    aggregate  for every edge e, add  wgt e · h (src e, ·)  into row  dst e   (gather, scale, scatter-add)
    hidden     max (a + b, 0), the bias b laid out as one row and spread over the 50000 rows
    product2   h · W2                                                    [50000, 64]
    logits     z + b, the bias again one row spread over the rows
    logSoftmax per row:  s − max s − log (∑ exp (s − max s))

  and `network` is their composition. Each is stated over the extended reals with exactly the host operations
  of the reference program, so the reference's result is `network` of its arguments by unfolding; the
  aggregation is never opened — it enters both programs as the same function.
-/
import proofs.«167697_j25795573580231_1_alg».proof.ReferenceIdeal
import proofs.«167697_j25795573580231_1_alg».proof.Proof.Gen.ReferenceIdeal
import Idealize.ShloMosaic.PureOps.Ideal

noncomputable section

namespace Cert.ReferenceIdeal.Layers

open Cert.ReferenceIdeal Cert.ReferenceIdeal.Facts₀ Idealize.ShloMosaic

/-- The first product, x · W1. -/
def product1 (x : FVec Ideal S50000x512 .f32) (w : FVec Ideal S512x256 .f32) : FVec Ideal S50000x256 .f32 :=
  Host.dotGeneral dot_S50000x512_S512x256_S50000x256_1_0_0_1_n_n none x w

/-- The source node of each edge, a negative index counted from the end (the host's index normalisation). -/
def sources (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The neighbour aggregation of a [50000, 256] array: row `src e` of `h`, scaled by `wgt e`, added into row `dst e`,
    over all edges `e`, from the zero array. -/
def aggregate256 (src dst : IVec S800000 32) (wgt : FVec Ideal S800000 .f32) (h : FVec Ideal S50000x256 .f32) :
    FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (broadcastInDim S800000x256 ![0, 1] bcast_S800000x1_S800000x256_0_1
        (broadcastInDim S800000x1 ![0] bcast_S800000_S800000x1_0 wgt))
      (Host.gather gather_S50000x256_S800000x1_S800000x256_1_0_n_n_0_1_1256 h
        (broadcastInDim S800000x1 ![0] bcast_S800000_S800000x1_0 (sources src))))

/-- The same aggregation of a [50000, 64] array. -/
def aggregate64 (src dst : IVec S800000 32) (wgt : FVec Ideal S800000 .f32) (h : FVec Ideal S50000x64 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (broadcastInDim S800000x64 ![0, 1] bcast_S800000x1_S800000x64_0_1
        (broadcastInDim S800000x1 ![0] bcast_S800000_S800000x1_0 wgt))
      (Host.gather gather_S50000x64_S800000x1_S800000x64_1_0_n_n_0_1_164 h
        (broadcastInDim S800000x1 ![0] bcast_S800000_S800000x1_0 (sources src))))

/-- The hidden activations: max (a + b, 0), the bias one row spread over the rows. -/
def hidden (a : FVec Ideal S50000x256 .f32) (b : FVec Ideal S1x256 .f32) : FVec Ideal S50000x256 .f32 :=
  maximumf (addf a (broadcastInDim S50000x256 ![0, 1] bcast_S1x256_S50000x256_0_1 b))
    (broadcastInDim S50000x256 ![] bcast_S_S50000x256 (constant (F := Ideal) S_ .f32 0x00000000#32))

/-- The second product, h · W2. -/
def product2 (h : FVec Ideal S50000x256 .f32) (w : FVec Ideal S256x64 .f32) : FVec Ideal S50000x64 .f32 :=
  Host.dotGeneral dot_S50000x256_S256x64_S50000x64_1_0_0_1_n_n none h w

/-- The class scores: z + b, the bias one row spread over the rows. -/
def logits (z : FVec Ideal S50000x64 .f32) (b : FVec Ideal S1x64 .f32) : FVec Ideal S50000x64 .f32 :=
  addf z (broadcastInDim S50000x64 ![0, 1] bcast_S1x64_S50000x64_0_1 b)

/-- A row's maximum, as the host takes it: −∞ joined with the reduction from −∞. -/
def rowMax (s : FVec Ideal S50000x64 .f32) : FVec Ideal S50000 .f32 :=
  maximumf (broadcastInDim S50000 ![] bcast_S_S50000 (constant (F := Ideal) S_ .f32 0xFF800000#32))
    (Host.reduce FloatOps.maximumf s (constant (F := Ideal) S_ .f32 0xFF800000#32) reducesTo_S50000x64_S50000_d1 h_S_)

/-- The scores less their row's maximum. -/
def shifted (s : FVec Ideal S50000x64 .f32) : FVec Ideal S50000x64 .f32 :=
  subf s (broadcastInDim S50000x64 ![0, 1] bcast_S50000x1_S50000x64_0_1
    (broadcastInDim S50000x1 ![0] bcast_S50000_S50000x1_0 (rowMax s)))

/-- The row log-softmax: the shifted scores less the logarithm of the row's sum of their exponentials. -/
def logSoftmax (s : FVec Ideal S50000x64 .f32) : FVec Ideal S50000x64 .f32 :=
  subf (shifted s) (broadcastInDim S50000x64 ![0, 1] bcast_S50000x1_S50000x64_0_1
    (Host.log (broadcastInDim S50000x1 ![0] bcast_S50000_S50000x1_0
      (Host.reduceAdd (Host.exp (shifted s)) (constant (F := Ideal) S_ .f32 0x00000000#32) reducesTo_S50000x64_S50000_d1 h_S_))))

/-- The whole network, of the argument arrays. -/
def network (x : FVec Ideal S50000x512 .f32) (src dst : IVec S800000 32) (wgt : FVec Ideal S800000 .f32)
    (w1 : FVec Ideal S512x256 .f32) (b1 : FVec Ideal S256 .f32) (w2 : FVec Ideal S256x64 .f32) (b2 : FVec Ideal S64 .f32) :
    FVec Ideal S50000x64 .f32 :=
  logSoftmax (logits (aggregate64 src dst wgt
      (product2 (hidden (aggregate256 src dst wgt (product1 x w1)) (broadcastInDim S1x256 ![1] bcast_S256_S1x256_1 b1)) w2))
    (broadcastInDim S1x64 ![1] bcast_S64_S1x64_1 b2))

end Cert.ReferenceIdeal.Layers

end
-- ==== Proof.KernelRun.lean ====
/-
  The idealized kernel's run, with every buffer named.

  @main is six segments in order: a stretch of host operations, the first matrix product's region,
  the first neighbour aggregation on the host, the second product's region, the second aggregation,
  and the row log-softmax's region. The contents of the TensorCore's buffers at each of the seven
  boundaries are a fold from the launch memory: a host stretch applies its operations, a region
  leaves each of its arrays at what its write-backs made of it and every other buffer alone. The
  last of those folds is `Gen.W6`.

  Here the run of the whole program is stated with that fold as its post: every weakly fair execution
  terminates, nothing faulting, and every buffer the program does not scope ends at `W6`. The result
  array and the argument arrays are read off that one statement (`run_result`): the result is `W6` at
  the last region's output array, and an argument is never written, so the fold at its buffer walks
  back to the launch memory.
-/
import proofs.«167697_j25795573580231_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that no region scopes ends
    at the last boundary's contents `W6`: the six segments chained from the launch memory, the first thread state
    made from what the launch deals, the last one read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run read at the result and at the arguments: the result array ends at `W6` of the last region's output
    array, each argument array as launched. -/
theorem run_result : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.Whole

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Product1.lean ====
/-
  The first product's region: what its output array holds after the region.

  The grid has 25 points. At point t the body multiplies rows 2000·t … 2000·t + 1999 of the [50000, 512] left
  operand by the whole [512, 256] right operand into the zero accumulator and stores the [2000, 256] block,
  which is written back to rows 2000·t … 2000·t + 1999 of the output array. Entry (p, q) of that block is the
  sum over k of left (2000·t + p, k) · right (k, q): entry (2000·t + p, q) of the whole product. The 25 blocks
  tile the 50000 rows (row r lies in block r / 2000), so the array ends holding the whole product.
-/
import proofs.«167697_j25795573580231_1_alg».proof.Proof.Gen.KernelIdeal.Frame
import proofs.«167697_j25795573580231_1_alg».proof.Proof.Layers
import proofs.«167697_j25795573580231_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Layers (product1)

/-- The block product's dimension numbers are the plain ones: contract the left operand's columns with the right
    operand's rows. -/
theorem dims_block : dot_S2000x512_S512x256_S2000x256_1_0_0_1_n_n = DotDims.plain 2000 512 256 := rfl
/-- So are the whole product's. -/
theorem dims_whole : Cert.ReferenceIdeal.dot_S50000x512_S512x256_S50000x256_1_0_0_1_n_n = DotDims.plain 50000 512 256 := rfl

/-- The whole product at (r, q): the sum over k of x (r, k) · w (k, q). -/
theorem product1_apply (x : FVec Ideal ⟨2, ![50000, 512]⟩ .f32) (w : FVec Ideal ⟨2, ![512, 256]⟩ .f32) (r : Fin 50000) (q : Fin 256) :
    product1 x w (ix2 r q) = ∑ k : Fin 512, x (ix2 r k) * w (ix2 k q) := by
  unfold product1
  rw [dims_whole]
  exact PlainDot.dotGeneral_apply none _ x w r q

/-- The body's stored block at (p, q): the sum over k of its left block's (p, k) times its right block's (k, q). -/
theorem payload_apply (x0 : FVec Ideal S2000x512 .bf16) (x1 : FVec Ideal S512x256 .bf16) (p : Fin 2000) (q : Fin 256) :
    k0_pay1 (F := Ideal) x0 x1 (ix2 p q) = ∑ k : Fin 512, x0 (ix2 p k) * x1 (ix2 k q) := by
  unfold k0_pay1
  rw [shapeCast_self, shapeCast_self, dims_block]
  exact PlainDot.matmul_zero_apply none x0 x1 p q

/-- A block whose row p is the array's row r and whose right block is the whole right operand has, at (p, q), the whole
    product's entry (r, q). -/
theorem block_entry (x : FVec Ideal ⟨2, ![50000, 512]⟩ .f32) (w : FVec Ideal ⟨2, ![512, 256]⟩ .f32)
    (x0 : FVec Ideal S2000x512 .bf16) (x1 : FVec Ideal S512x256 .bf16) (r : Fin 50000) (p : Fin 2000) (q : Fin 256)
    (h0 : ∀ k : Fin 512, x0 (ix2 p k) = x (ix2 r k)) (h1 : ∀ k : Fin 512, x1 (ix2 k q) = w (ix2 k q)) :
    k0_pay1 (F := Ideal) x0 x1 (ix2 p q) = product1 x w (ix2 r q) := by
  rw [payload_apply, product1_apply]
  exact Finset.sum_congr rfl fun k _ => by rw [h0 k, h1 k]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the output's row block is the point, every column
    block and the right operand's row block is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two operand arrays as the region finds them. -/
theorem written_block (c : Dev nD) (t : Fin cfg0.N) :
    (dat0 V c).flushed 2 t = ((cfg0.win 2).blk t).view.read (Elt Ideal) (product1 (V c main_v0) (V c main_v1)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x256) origin]
  obtain ⟨e00, e01, e10, e11, e20, e21⟩ := block_indices t
  have ht : t.val < 25 := lt_of_lt_of_eq t.isLt N_0
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q) = product1 (V c main_v0) (V c main_v1) (((cfg0.win 2).blk t).view.emb (ix2 p q))
  have hp : p.val < 2000 := p.isLt
  refine (block_entry (V c main_v0) (V c main_v1) (iblk0 V c 0 t) (iblk0 V c 1 t) ⟨2000 * t.val + p.val, by omega⟩ p q ?_ ?_).trans
    (congrArg (product1 (V c main_v0) (V c main_v1)) ?_)
  · intro k
    show V c main_v0 (((cfg0.win 0).blk t).view.emb (ix2 p k)) = V c main_v0 (ix2 ⟨2000 * t.val + p.val, by omega⟩ k)
    refine congrArg (V c main_v0) (funext fun a => Fin.ext ?_)
    match a with
    | ⟨0, _⟩ => show win0_0.index t (0 : Fin 2) * 2000 + 1 * p.val = 2000 * t.val + p.val; omega
    | ⟨1, _⟩ => show win0_0.index t (1 : Fin 2) * 512 + 1 * k.val = k.val; omega
  · intro k
    show V c main_v1 (((cfg0.win 1).blk t).view.emb (ix2 k q)) = V c main_v1 (ix2 k q)
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 256 + 1 * q.val = q.val; omega
  · refine funext fun a => Fin.ext ?_
    match a with
    | ⟨0, _⟩ => show 2000 * t.val + p.val = win0_2.index t (0 : Fin 2) * 2000 + 1 * p.val; omega
    | ⟨1, _⟩ => show q.val = win0_2.index t (1 : Fin 2) * 256 + 1 * q.val; omega

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v2).slice (win0_2.rect t)).set ↔ _
  rw [View.set_slice_whole, Rect.mem_set_unit]
  exact Iff.rfl

/-- Every index of the output array is in some point's block: row r is in block r / 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨_, _, _, _, e20, e21⟩ := block_indices t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- The output array after the region: the whole product of the operand arrays as the region finds them. -/
theorem array_after (c : Dev nD) :
    (dat0 V c).arrAt 2 cfg0.N = product1 (V c main_v0) (V c main_v1) :=
  (dat0 V c).arrAt_eq_of_cover 2 _ (fun t _ => written_block V c t) covered

end Cert.KernelIdeal.Product1

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LayersAt.lean ====
/-
  The layers read at an index.

  The two products at (r, q) are sums over the contracted axis; the hidden activation at (r, k) is
  max (a (r, k) + b (0, k), 0); the scores at (r, q) are z (r, q) + b (0, q); and the row log-softmax at (r, q)
  depends on row r of the scores alone: with f the row, it is  f q − M − log (∑ⱼ exp (f j − M)),  M the fold of
  max over the row from −∞ (`rowLogSoftmax`). The host joins −∞ once more before subtracting; −∞ is below every
  fold that starts from it, so that changes nothing. The host's sum starts from the literal zero, which adds nothing.
-/
import proofs.«167697_j25795573580231_1_alg».proof.Proof.Layers
import proofs.«167697_j25795573580231_1_alg».proof.Proof.LibPlainDot
import proofs.«167697_j25795573580231_1_alg».proof.Proof.LibRowOps
import proofs.«167697_j25795573580231_1_alg».proof.Proof.LibRowSpread
import Idealize.ShloMosaic.PureOps.Ideal.Laws

set_option maxRecDepth 16384

noncomputable section

open scoped BigOperators

namespace Cert.ReferenceIdeal.Layers

open Cert.ReferenceIdeal Cert.ReferenceIdeal.Facts₀ Idealize.ShloMosaic Idealize.ShloMosaic.ValueIdx

/-- The log-softmax of one row of 64 scores, at position q. -/
def rowLogSoftmax (f : Fin 64 → EReal) (q : Fin 64) : EReal :=
  (f q - (Finset.univ : Finset (Fin 64)).fold max (Ideal.ofBits .f32 0xFF800000#32) f)
    - Ideal.log (∑ j : Fin 64, Ideal.exp (f j - (Finset.univ : Finset (Fin 64)).fold max (Ideal.ofBits .f32 0xFF800000#32) f))

/-- The exponential and the logarithm, in the host's and in the vector spelling, read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem exp_apply {s : Shape} (x : FVec Ideal s .f32) (i : s.Idx) : exp x i = Ideal.exp (x i) := rfl
theorem log_apply {s : Shape} (x : FVec Ideal s .f32) (i : s.Idx) : log x i = Ideal.log (x i) := rfl

/-- Both products' dimension numbers are the plain ones. -/
theorem dims1 : dot_S50000x512_S512x256_S50000x256_1_0_0_1_n_n = DotDims.plain 50000 512 256 := rfl
theorem dims2 : dot_S50000x256_S256x64_S50000x64_1_0_0_1_n_n = DotDims.plain 50000 256 64 := rfl
/-- Reducing the columns of a [50000, 64] array leaves its 50000 rows. -/
theorem reduces_rows : S50000x64.Reduces [1] S50000 := by decide

theorem product1_apply (x : FVec Ideal S50000x512 .f32) (w : FVec Ideal S512x256 .f32) (r : Fin 50000) (q : Fin 256) :
    product1 x w (ix2 r q) = ∑ k : Fin 512, x (ix2 r k) * w (ix2 k q) := by
  unfold product1
  rw [dims1]
  exact PlainDot.dotGeneral_apply none _ x w r q

theorem product2_apply (h : FVec Ideal S50000x256 .f32) (w : FVec Ideal S256x64 .f32) (r : Fin 50000) (q : Fin 64) :
    product2 h w (ix2 r q) = ∑ k : Fin 256, h (ix2 r k) * w (ix2 k q) := by
  unfold product2
  rw [dims2]
  exact PlainDot.dotGeneral_apply none _ h w r q

theorem hidden_apply (a : FVec Ideal S50000x256 .f32) (b : FVec Ideal S1x256 .f32) (r : Fin 50000) (k : Fin 256) :
    hidden a b (ix2 r k) = max (a (ix2 r k) + b (ix2 (0 : Fin 1) k)) (0 : EReal) := by
  unfold hidden
  rw [maximumf_apply, addf_apply, RowSpread.rowInDim2_apply, RowSpread.scalarInDim_apply, constant_apply, Ideal.ofBits_zero_f32]

theorem logits_apply (z : FVec Ideal S50000x64 .f32) (b : FVec Ideal S1x64 .f32) (r : Fin 50000) (q : Fin 64) :
    logits z b (ix2 r q) = z (ix2 r q) + b (ix2 (0 : Fin 1) q) := by
  unfold logits
  rw [addf_apply, RowSpread.rowInDim2_apply]

/-- The host's row maximum is the fold of max over the row from −∞: joining −∞ again changes nothing. -/
theorem rowMax_apply (s : FVec Ideal S50000x64 .f32) (r : Fin 50000) :
    rowMax s (ix1 r) = (Finset.univ : Finset (Fin 64)).fold max (Ideal.ofBits .f32 0xFF800000#32) (fun j => s (ix2 r j)) := by
  unfold rowMax
  rw [maximumf_apply, RowSpread.scalarInDim_apply, constant_apply,
    RowOps.rowMax_host s _ reducesTo_S50000x64_S50000_d1 reduces_rows h_S_ r, constant_apply]
  exact max_eq_right ((Finset.le_fold_max _).2 (Or.inl le_rfl))

theorem shifted_apply (s : FVec Ideal S50000x64 .f32) (r : Fin 50000) (q : Fin 64) :
    shifted s (ix2 r q)
      = s (ix2 r q) - (Finset.univ : Finset (Fin 64)).fold max (Ideal.ofBits .f32 0xFF800000#32) (fun j => s (ix2 r j)) := by
  unfold shifted
  rw [subf_apply, RowOps.colInDim2_apply, RowOps.colInDim_apply, rowMax_apply]

/-- The host's row log-softmax at (r, q) is the log-softmax of row r at q. -/
theorem logSoftmax_apply (s : FVec Ideal S50000x64 .f32) (r : Fin 50000) (q : Fin 64) :
    logSoftmax s (ix2 r q) = rowLogSoftmax (fun j => s (ix2 r j)) q := by
  unfold logSoftmax rowLogSoftmax
  rw [subf_apply, RowOps.colInDim2_apply, shifted_apply]
  refine congrArg (fun u => (s (ix2 r q) - (Finset.univ : Finset (Fin 64)).fold max (Ideal.ofBits .f32 0xFF800000#32) (fun j => s (ix2 r j))) - u) ?_
  rw [hostLog_apply, RowOps.colInDim_apply, RowOps.rowSum_host _ _ reducesTo_S50000x64_S50000_d1 reduces_rows h_S_ r, constant_apply,
    Ideal.ofBits_zero_f32, zero_add]
  refine congrArg Ideal.log (Finset.sum_congr rfl fun j _ => ?_)
  rw [hostExp_apply, shifted_apply]

end Cert.ReferenceIdeal.Layers

end
-- ==== Proof.Product2.lean ====
/-
  The second product's region: what its output array holds after the region.

  At grid point t the body takes rows 2000·t … 2000·t + 1999 of the aggregated [50000, 256] array, adds the bias
  row (a [1, 256] block, the same at every point) to every row, takes the maximum with 0, and multiplies by the whole
  [256, 64] weight block into the zero accumulator. Entry (p, q) of what it stores is the sum over k of
  max (a (2000·t + p, k) + b (0, k), 0) · w (k, q): entry (2000·t + p, q) of the hidden activations times the weights.
  The 25 blocks tile the 50000 rows, so the output array ends holding that whole product.
-/
import proofs.«167697_j25795573580231_1_alg».proof.Proof.Gen.KernelIdeal.Frame
import proofs.«167697_j25795573580231_1_alg».proof.Proof.LayersAt
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Layers (product2 hidden product2_apply hidden_apply)

/-- The block product's dimension numbers are the plain ones. -/
theorem dims_block : dot_S2000x256_S256x64_S2000x64_1_0_0_1_n_n = DotDims.plain 2000 256 64 := rfl

/-- The body's stored block at (p, q): the sum over k of max (x0 (p, k) + x1 (0, k), 0) · x2 (k, q). -/
theorem payload_apply (x0 : FVec Ideal S2000x256 .f32) (x1 : FVec Ideal S1x256 .f32) (x2 : FVec Ideal S256x64 .bf16)
    (p : Fin 2000) (q : Fin 64) :
    k1_pay1 (F := Ideal) x0 x1 x2 (ix2 p q)
      = ∑ k : Fin 256, max (x0 (ix2 p k) + x1 (ix2 (0 : Fin 1) k)) (0 : EReal) * x2 (ix2 k q) := by
  unfold k1_pay1
  rw [shapeCast_self, shapeCast_self, shapeCast_self, dims_block]
  refine (PlainDot.matmul_zero_apply none _ _ p q).trans (Finset.sum_congr rfl fun k _ => ?_)
  rw [truncf_apply, maximumf_apply, addf_apply, RowSpread.rowBcast_apply, broadcast_apply]
  show max _ (Ideal.ofBits .f32 0x00000000#32) * _ = _
  rw [Ideal.ofBits_zero_f32]

/-- A block whose row p is the aggregated array's row r, whose bias block is the bias row and whose weight block is the
    whole weight array has, at (p, q), entry (r, q) of the hidden activations times the weights. -/
theorem block_entry (a : FVec Ideal ⟨2, ![50000, 256]⟩ .f32) (b : FVec Ideal ⟨2, ![1, 256]⟩ .f32) (w : FVec Ideal ⟨2, ![256, 64]⟩ .f32)
    (x0 : FVec Ideal S2000x256 .f32) (x1 : FVec Ideal S1x256 .f32) (x2 : FVec Ideal S256x64 .bf16)
    (r : Fin 50000) (p : Fin 2000) (q : Fin 64)
    (h0 : ∀ k : Fin 256, x0 (ix2 p k) = a (ix2 r k)) (h1 : ∀ k : Fin 256, x1 (ix2 (0 : Fin 1) k) = b (ix2 (0 : Fin 1) k))
    (h2 : ∀ k : Fin 256, x2 (ix2 k q) = w (ix2 k q)) :
    k1_pay1 (F := Ideal) x0 x1 x2 (ix2 p q) = product2 (hidden a b) w (ix2 r q) := by
  rw [payload_apply, product2_apply]
  exact Finset.sum_congr rfl fun k _ => by rw [hidden_apply, h0 k, h1 k, h2 k]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregated array's and the output's row block is the point, every other
    block index is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the hidden activations times the weights, of the arrays as the region finds them. -/
theorem written_block (c : Dev nD) (t : Fin cfg1.N) :
    (dat1 V c).flushed 3 t = ((cfg1.win 3).blk t).view.read (Elt Ideal)
      (product2 (hidden (V c main_v15) (V c main_v17)) (V c main_v16)) := by
  show (cfg1.win 3).cut (grid1.coords t) ((dat1 V c).after 3 t) = _
  rw [after1_3]
  unfold out1_3
  rw [View.canon_unit_zero origin]
  simp only [View.ld_unit_zero (S := S2000x256) origin, View.ld_unit_zero (S := S1x256) origin, View.ld_unit_zero (S := S256x64) origin]
  obtain ⟨e00, e01, e10, e11, e20, e21, e30, e31⟩ := block_indices t
  have ht : t.val < 25 := lt_of_lt_of_eq t.isLt N_1
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (ix2 p q)
    = product2 (hidden (V c main_v15) (V c main_v17)) (V c main_v16) (((cfg1.win 3).blk t).view.emb (ix2 p q))
  have hp : p.val < 2000 := p.isLt
  refine (block_entry (V c main_v15) (V c main_v17) (V c main_v16) (iblk1 V c 0 t) (iblk1 V c 1 t) (iblk1 V c 2 t)
    ⟨2000 * t.val + p.val, by omega⟩ p q ?_ ?_ ?_).trans
    (congrArg (product2 (hidden (V c main_v15) (V c main_v17)) (V c main_v16)) ?_)
  · intro k
    show V c main_v15 (((cfg1.win 0).blk t).view.emb (ix2 p k)) = V c main_v15 (ix2 ⟨2000 * t.val + p.val, by omega⟩ k)
    refine congrArg (V c main_v15) (funext fun a => Fin.ext ?_)
    match a with
    | ⟨0, _⟩ => show win1_0.index t (0 : Fin 2) * 2000 + 1 * p.val = 2000 * t.val + p.val; omega
    | ⟨1, _⟩ => show win1_0.index t (1 : Fin 2) * 256 + 1 * k.val = k.val; omega
  · intro k
    show V c main_v17 (((cfg1.win 1).blk t).view.emb (ix2 (0 : Fin 1) k)) = V c main_v17 (ix2 (0 : Fin 1) k)
    refine congrArg (V c main_v17) (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  · intro k
    show V c main_v16 (((cfg1.win 2).blk t).view.emb (ix2 k q)) = V c main_v16 (ix2 k q)
    refine congrArg (V c main_v16) (funext fun a => Fin.ext ?_)
    match a with
    | ⟨0, _⟩ => show win1_2.index t (0 : Fin 2) * 256 + 1 * k.val = k.val; omega
    | ⟨1, _⟩ => show win1_2.index t (1 : Fin 2) * 64 + 1 * q.val = q.val; omega
  · refine funext fun a => Fin.ext ?_
    match a with
    | ⟨0, _⟩ => show 2000 * t.val + p.val = win1_3.index t (0 : Fin 2) * 2000 + 1 * p.val; omega
    | ⟨1, _⟩ => show q.val = win1_3.index t (1 : Fin 2) * 64 + 1 * q.val; omega

/-- An index of the output array is in point t's block iff each coordinate is in the block's range on its axis. -/
theorem mem_block (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v18).slice (win1_3.rect t)).set ↔ _
  rw [View.set_slice_whole, Rect.mem_set_unit]
  exact Iff.rfl

/-- Every index of the output array is in some point's block: row r is in block r / 2000. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨_, _, _, _, _, _, e30, e31⟩ := block_indices t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 64 ≤ (i 1).val ∧ (i 1).val < win1_3.index t (1 : Fin 2) * 64 + 64
    omega

/-- The output array after the region: the hidden activations times the weights, of the arrays as the region finds them. -/
theorem array_after (c : Dev nD) :
    (dat1 V c).arrAt 3 cfg1.N = product2 (hidden (V c main_v15) (V c main_v17)) (V c main_v16) :=
  (dat1 V c).arrAt_eq_of_cover 3 _ (fun t _ => written_block V c t) covered

end Cert.KernelIdeal.Product2

end
-- ==== Proof.Softmax.lean ====
/-
  The row log-softmax's region: what its output array holds after the region.

  At grid point t the body takes rows 2000·t … 2000·t + 1999 of the aggregated [50000, 64] array, adds the bias row
  (a [1, 64] block, the same at every point) to every row, and replaces each row s by  s − max s − log (∑ exp (s − max s)),
  the maximum a fold from −∞ and the sum a fold from 0 over the row's 64 entries. Entry (p, q) of what it stores is the
  log-softmax, at q, of row 2000·t + p of the scores z + b: entry (2000·t + p, q) of the host's row log-softmax of the
  scores. The 25 blocks tile the 50000 rows, so the output array ends holding the whole row log-softmax.
-/
import proofs.«167697_j25795573580231_1_alg».proof.Proof.Gen.KernelIdeal.Frame
import proofs.«167697_j25795573580231_1_alg».proof.Proof.LayersAt
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Softmax

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Layers (logSoftmax logits rowLogSoftmax logSoftmax_apply logits_apply)

/-- The block's scores: the aggregated block plus the bias row spread over its rows. -/
def scoresV (x0 : FVec Ideal S2000x64 .f32) (x1 : FVec Ideal S1x64 .f32) : FVec Ideal S2000x64 .f32 :=
  addf x0 (broadcastTo S2000x64 x1 broadcasts_S1x64_S2000x64)

/-- The block's scores less their row's maximum, the maximum a lane reduction from −∞ stood up as a column. -/
def shiftedV (s : FVec Ideal S2000x64 .f32) : FVec Ideal S2000x64 .f32 :=
  subf s (broadcastTo S2000x64
    (shapeCast S2000x1 (multiReduction .maximumf [1] S2000 s 0xFF800000#32 reduces_S2000x64_S2000 (.inl rfl) rfl) shapeCasts_S2000_S2000x1)
    broadcasts_S2000x1_S2000x64)

/-- The block's row log-softmax: the shifted scores less the logarithm of the row's sum of their exponentials. -/
def logSoftmaxV (s : FVec Ideal S2000x64 .f32) : FVec Ideal S2000x64 .f32 :=
  subf (shiftedV s) (broadcastTo S2000x64
    (log (shapeCast S2000x1 (multiReduction .add [1] S2000 (exp (shiftedV s)) 0x00000000#32 reduces_S2000x64_S2000 (.inl rfl) rfl) shapeCasts_S2000_S2000x1))
    broadcasts_S2000x1_S2000x64)

/-- The body's stored block is the row log-softmax of the block's scores. -/
theorem payload_eq (x0 : FVec Ideal S2000x64 .f32) (x1 : FVec Ideal S1x64 .f32) :
    k2_pay1 (F := Ideal) x0 x1
      = logSoftmaxV (scoresV (shapeCast S2000x64 x0 shapeCasts_S2000x64_S2000x64) (shapeCast S1x64 x1 shapeCasts_S1x64_S1x64)) := rfl

theorem shiftedV_apply (s : FVec Ideal S2000x64 .f32) (p : Fin 2000) (q : Fin 64) :
    shiftedV s (ix2 p q)
      = s (ix2 p q) - (Finset.univ : Finset (Fin 64)).fold max (Ideal.ofBits .f32 0xFF800000#32) (fun j => s (ix2 p j)) := by
  unfold shiftedV
  rw [subf_apply, RowOps.colBcast_apply, RowOps.colCast_apply]
  exact congrArg (fun u => s (ix2 p q) - u) (RowOps.rowMax_vector s _ _ _ _ p)

/-- The block's row log-softmax at (p, q) is the log-softmax of row p at q. -/
theorem logSoftmaxV_apply (s : FVec Ideal S2000x64 .f32) (p : Fin 2000) (q : Fin 64) :
    logSoftmaxV s (ix2 p q) = rowLogSoftmax (fun j => s (ix2 p j)) q := by
  unfold logSoftmaxV rowLogSoftmax
  rw [subf_apply, RowOps.colBcast_apply, shiftedV_apply]
  refine congrArg (fun u => (s (ix2 p q) - (Finset.univ : Finset (Fin 64)).fold max (Ideal.ofBits .f32 0xFF800000#32) (fun j => s (ix2 p j))) - u) ?_
  rw [Cert.ReferenceIdeal.Layers.log_apply, RowOps.colCast_apply]
  refine congrArg Ideal.log ((RowOps.rowSum_vector (exp (shiftedV s)) _ _ _ _ p).trans (Finset.sum_congr rfl fun j _ => ?_))
  rw [Cert.ReferenceIdeal.Layers.exp_apply, shiftedV_apply]

/-- A block whose row p is the aggregated array's row r and whose bias block is the bias row has, at (p, q), entry (r, q)
    of the row log-softmax of the scores. -/
theorem block_entry (z : FVec Ideal ⟨2, ![50000, 64]⟩ .f32) (b : FVec Ideal ⟨2, ![1, 64]⟩ .f32)
    (x0 : FVec Ideal S2000x64 .f32) (x1 : FVec Ideal S1x64 .f32) (r : Fin 50000) (p : Fin 2000) (q : Fin 64)
    (h0 : ∀ j : Fin 64, x0 (ix2 p j) = z (ix2 r j)) (h1 : ∀ j : Fin 64, x1 (ix2 (0 : Fin 1) j) = b (ix2 (0 : Fin 1) j)) :
    k2_pay1 (F := Ideal) x0 x1 (ix2 p q) = logSoftmax (logits z b) (ix2 r q) := by
  rw [payload_eq, shapeCast_self, shapeCast_self, logSoftmaxV_apply, logSoftmax_apply]
  refine congrArg (fun f => rowLogSoftmax f q) (funext fun j => ?_)
  unfold scoresV
  rw [addf_apply, RowSpread.rowBcast_apply, logits_apply, h0 j, h1 j]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the aggregated array's and the output's row block is the point, every other
    block index is 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the row log-softmax of the scores, of the arrays as the region finds them. -/
theorem written_block (c : Dev nD) (t : Fin cfg2.N) :
    (dat2 V c).flushed 2 t = ((cfg2.win 2).blk t).view.read (Elt Ideal) (logSoftmax (logits (V c main_v31) (V c main_v32))) := by
  show (cfg2.win 2).cut (grid2.coords t) ((dat2 V c).after 2 t) = _
  rw [after2_2]
  unfold out2_2
  rw [View.canon_unit_zero origin]
  simp only [View.ld_unit_zero (S := S2000x64) origin, View.ld_unit_zero (S := S1x64) origin]
  obtain ⟨e00, e01, e10, e11, e20, e21⟩ := block_indices t
  have ht : t.val < 25 := lt_of_lt_of_eq t.isLt N_2
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (ix2 p q)
    = logSoftmax (logits (V c main_v31) (V c main_v32)) (((cfg2.win 2).blk t).view.emb (ix2 p q))
  have hp : p.val < 2000 := p.isLt
  refine (block_entry (V c main_v31) (V c main_v32) (iblk2 V c 0 t) (iblk2 V c 1 t) ⟨2000 * t.val + p.val, by omega⟩ p q ?_ ?_).trans
    (congrArg (logSoftmax (logits (V c main_v31) (V c main_v32))) ?_)
  · intro k
    show V c main_v31 (((cfg2.win 0).blk t).view.emb (ix2 p k)) = V c main_v31 (ix2 ⟨2000 * t.val + p.val, by omega⟩ k)
    refine congrArg (V c main_v31) (funext fun a => Fin.ext ?_)
    match a with
    | ⟨0, _⟩ => show win2_0.index t (0 : Fin 2) * 2000 + 1 * p.val = 2000 * t.val + p.val; omega
    | ⟨1, _⟩ => show win2_0.index t (1 : Fin 2) * 64 + 1 * k.val = k.val; omega
  · intro k
    show V c main_v32 (((cfg2.win 1).blk t).view.emb (ix2 (0 : Fin 1) k)) = V c main_v32 (ix2 (0 : Fin 1) k)
    refine congrArg (V c main_v32) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · refine funext fun a => Fin.ext ?_
    match a with
    | ⟨0, _⟩ => show 2000 * t.val + p.val = win2_2.index t (0 : Fin 2) * 2000 + 1 * p.val; omega
    | ⟨1, _⟩ => show q.val = win2_2.index t (1 : Fin 2) * 64 + 1 * q.val; omega

/-- An index of the output array is in point t's block iff each coordinate is in the block's range on its axis. -/
theorem mem_block (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v33).slice (win2_2.rect t)).set ↔ _
  rw [View.set_slice_whole, Rect.mem_set_unit]
  exact Iff.rfl

/-- Every index of the output array is in some point's block: row r is in block r / 2000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨_, _, _, _, e20, e21⟩ := block_indices t
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- The output array after the region: the row log-softmax of the scores, of the arrays as the region finds them. -/
theorem array_after (c : Dev nD) :
    (dat2 V c).arrAt 2 cfg2.N = logSoftmax (logits (V c main_v31) (V c main_v32)) :=
  (dat2 V c).arrAt_eq_of_cover 2 _ (fun t _ => written_block V c t) covered

end Cert.KernelIdeal.Softmax

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.KernelValue.lean ====
/-
  The idealized kernel's result array is the network of its argument arrays.

  Walking the program's six segments from the end. The result array is what the log-softmax region leaves:
  the row log-softmax of the scores, the scores being the second aggregation (read off the host stretch before the
  region) plus the second bias, which that stretch reshapes to one row — the same array as the host's broadcast of
  it along axis 1. The second aggregation is taken of what the second product's region leaves: the hidden
  activations times the second weights, the activations being max (first aggregation + first bias row, 0) and the
  weights passed through a change of float format, which is the identity on the extended reals. The first
  aggregation is taken of what the first product's region leaves: the product of the features and the first
  weights, both passed through the same change of format. No stretch and no region writes an argument array, so
  wherever a stretch reads one it reads the launch contents. Composed, that is `network` of the arguments.
-/
import proofs.«167697_j25795573580231_1_alg».proof.Proof.KernelRun
import proofs.«167697_j25795573580231_1_alg».proof.Proof.Product1
import proofs.«167697_j25795573580231_1_alg».proof.Proof.Product2
import proofs.«167697_j25795573580231_1_alg».proof.Proof.Softmax
import proofs.«167697_j25795573580231_1_alg».proof.Proof.LibRowCast
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.StableHlo (after_of_forall_not_mem)
open Cert.ReferenceIdeal.Layers (product1 product2 hidden logits logSoftmax aggregate256 aggregate64 network)

variable (m : (ℓ : Loc nD τ sig) → Buf (Elt Ideal) ℓ) (ρ : Dev nD → PrngReg)

/-- No operation of a literal stretch of host operations writes the buffer in question: each operation's one written
    buffer is another one. -/
local macro "untouched_by " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arguments at the two inner boundaries are the launch contents -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) :=
          StableHlo.after_of_forall_not_mem (b := Proc.devRef .tc main_arg1) _ _ (by untouched_by hostOps0)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (by untouched_by hostOps0)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (by untouched_by hostOps0)
    _ = m ((c : Thread nD τ).loc main_arg3) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) :=
          StableHlo.after_of_forall_not_mem (b := Proc.devRef .tc main_arg5) _ _ (by untouched_by hostOps0)
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) :=
          StableHlo.after_of_forall_not_mem (b := Proc.devRef .tc main_arg6) _ _ (by untouched_by hostOps0)
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) :=
          StableHlo.after_of_forall_not_mem (b := Proc.devRef .tc main_arg7) _ _ (by untouched_by hostOps0)
    _ = m ((c : Thread nD τ).loc main_arg7) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) :=
          StableHlo.after_of_forall_not_mem (b := Proc.devRef .tc main_arg1) _ _ (by untouched_by hostOps1)
    _ = m ((c : Thread nD τ).loc main_arg1) := W2_main_arg1 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) :=
          StableHlo.after_of_forall_not_mem (b := Proc.devRef .tc main_arg2) _ _ (by untouched_by hostOps1)
    _ = m ((c : Thread nD τ).loc main_arg2) := W2_main_arg2 m ρ c
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) :=
          StableHlo.after_of_forall_not_mem (b := Proc.devRef .tc main_arg3) _ _ (by untouched_by hostOps1)
    _ = m ((c : Thread nD τ).loc main_arg3) := W2_main_arg3 m ρ c
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) :=
          StableHlo.after_of_forall_not_mem (b := Proc.devRef .tc main_arg7) _ _ (by untouched_by hostOps1)
    _ = m ((c : Thread nD τ).loc main_arg7) := W2_main_arg7 m ρ c

/-! ## The first product's region -/

/-- The left operand as the region finds it: the features, through a change of float format. -/
theorem entry0_left (c : Dev nD) : (V1 m ρ c main_v0 : S50000x512.Idx → EReal) = m ((c : Thread nD τ).loc main_arg0) := by
  show StableHlo.after hostOps0 (W0 m ρ c) (Proc.devRef .tc main_v0) = _
  after_results
  rfl

/-- The right operand as the region finds it: the first weights, through a change of float format. -/
theorem entry0_right (c : Dev nD) : (V1 m ρ c main_v1 : S512x256.Idx → EReal) = m ((c : Thread nD τ).loc main_arg4) := by
  show StableHlo.after hostOps0 (W0 m ρ c) (Proc.devRef .tc main_v1) = _
  after_results
  rfl

/-- What the region leaves in its output array: the features times the first weights. -/
theorem after0 (c : Dev nD) : (W2 m ρ c (Proc.devRef .tc main_v2) : S50000x256.Idx → EReal)
    = product1 (m ((c : Thread nD τ).loc main_arg0)) (m ((c : Thread nD τ).loc main_arg4)) := by
  refine ((W2_arr m ρ c 2).trans (Product1.array_after (V1 m ρ) c)).trans ?_
  rw [entry0_left m ρ c, entry0_right m ρ c]

/-! ## The second product's region -/

set_option maxHeartbeats 1000000 in
/-- The aggregated array as the region finds it: the first aggregation of what the first region left. -/
theorem entry1_agg (c : Dev nD) : (V3 m ρ c main_v15 : S50000x256.Idx → EReal)
    = aggregate256 (m ((c : Thread nD τ).loc main_arg1)) (m ((c : Thread nD τ).loc main_arg2)) (m ((c : Thread nD τ).loc main_arg3))
        (W2 m ρ c (Proc.devRef .tc main_v2)) := by
  show StableHlo.after hostOps1 (W2 m ρ c) (Proc.devRef .tc main_v15) = _
  after_results
  rw [W2_main_arg1 m ρ c, W2_main_arg2 m ρ c, W2_main_arg3 m ρ c]
  rfl

/-- The bias row as the region finds it: the first bias reshaped to one row, which is its broadcast along axis 1. -/
theorem entry1_bias (c : Dev nD) : (V3 m ρ c main_v17 : S1x256.Idx → EReal)
    = broadcastInDim Cert.ReferenceIdeal.S1x256 ![1] Cert.ReferenceIdeal.Facts₀.bcast_S256_S1x256_1 (m ((c : Thread nD τ).loc main_arg5)) := by
  show StableHlo.after hostOps1 (W2 m ρ c) (Proc.devRef .tc main_v17) = _
  after_results
  rw [W2_main_arg5 m ρ c]
  exact RowCast.shapeCast_row_eq_broadcastInDim (m ((c : Thread nD τ).loc main_arg5)) shapeCasts_S256_S1x256
    Cert.ReferenceIdeal.Facts₀.bcast_S256_S1x256_1

/-- The weights as the region finds them: the second weights, through a change of float format. -/
theorem entry1_weights (c : Dev nD) : (V3 m ρ c main_v16 : S256x64.Idx → EReal) = m ((c : Thread nD τ).loc main_arg6) := by
  show StableHlo.after hostOps1 (W2 m ρ c) (Proc.devRef .tc main_v16) = _
  after_results
  rw [W2_main_arg6 m ρ c]
  rfl

/-- What the region leaves in its output array. -/
theorem after1 (c : Dev nD) : (W4 m ρ c (Proc.devRef .tc main_v18) : S50000x64.Idx → EReal)
    = product2 (hidden (aggregate256 (m ((c : Thread nD τ).loc main_arg1)) (m ((c : Thread nD τ).loc main_arg2)) (m ((c : Thread nD τ).loc main_arg3))
          (product1 (m ((c : Thread nD τ).loc main_arg0)) (m ((c : Thread nD τ).loc main_arg4))))
        (broadcastInDim Cert.ReferenceIdeal.S1x256 ![1] Cert.ReferenceIdeal.Facts₀.bcast_S256_S1x256_1 (m ((c : Thread nD τ).loc main_arg5))))
      (m ((c : Thread nD τ).loc main_arg6)) := by
  refine ((W4_arr m ρ c 3).trans (Product2.array_after (V3 m ρ) c)).trans ?_
  rw [entry1_agg m ρ c, entry1_bias m ρ c, entry1_weights m ρ c, after0 m ρ c]

/-! ## The log-softmax's region -/

set_option maxHeartbeats 1000000 in
/-- The aggregated array as the region finds it: the second aggregation of what the second region left. -/
theorem entry2_agg (c : Dev nD) : (V5 m ρ c main_v31 : S50000x64.Idx → EReal)
    = aggregate64 (m ((c : Thread nD τ).loc main_arg1)) (m ((c : Thread nD τ).loc main_arg2)) (m ((c : Thread nD τ).loc main_arg3))
        (W4 m ρ c (Proc.devRef .tc main_v18)) := by
  show StableHlo.after hostOps2 (W4 m ρ c) (Proc.devRef .tc main_v31) = _
  after_results
  rw [W4_main_arg1 m ρ c, W4_main_arg2 m ρ c, W4_main_arg3 m ρ c]
  rfl

/-- The bias row as the region finds it: the second bias reshaped to one row, which is its broadcast along axis 1. -/
theorem entry2_bias (c : Dev nD) : (V5 m ρ c main_v32 : S1x64.Idx → EReal)
    = broadcastInDim Cert.ReferenceIdeal.S1x64 ![1] Cert.ReferenceIdeal.Facts₀.bcast_S64_S1x64_1 (m ((c : Thread nD τ).loc main_arg7)) := by
  show StableHlo.after hostOps2 (W4 m ρ c) (Proc.devRef .tc main_v32) = _
  after_results
  rw [W4_main_arg7 m ρ c]
  exact RowCast.shapeCast_row_eq_broadcastInDim (m ((c : Thread nD τ).loc main_arg7)) shapeCasts_S64_S1x64
    Cert.ReferenceIdeal.Facts₀.bcast_S64_S1x64_1

/-- THE RESULT: after the run the result array is the network of the argument arrays. -/
theorem result_eq (c : Dev nD) : (W6 m ρ c (Proc.devRef .tc main_v33) : S50000x64.Idx → EReal)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W6_arr m ρ c 2).trans (Softmax.array_after (V5 m ρ) c)).trans ?_
  rw [entry2_agg m ρ c, entry2_bias m ρ c, after1 m ρ c]
  rfl

/-- The run at the network: every weakly fair execution of the idealized kernel terminates with the result array at the
    network of the launch contents of the arguments, each argument array as launched. -/
theorem run_network : θ_run defs (onTc (τ := τ) (main (F := Ideal))) ⟨m, fun _ => 0, ρ⟩ (fun r => ∀ c : Dev nD,
      r.2.mem ((c.tc : Thread nD τ).loc main_v33)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Cert.KernelIdeal.Whole

end
-- ==== Proof.lean ====
/-
  A two-layer graph convolution with a row log-softmax, computed by three pipelined kernels among host operations,
  against the same network computed by host operations alone: equal results over the extended reals.

  The network, of features x [50000, 512], 800000 weighted edges (src, dst, wgt) and weights W1, b1, W2, b2:
      h   = max (A (x · W1) + b1, 0)          A the neighbour aggregation  (A u) (d, ·) = ∑ over edges e into d of wgt e · u (src e, ·)
      out = logsoftmax over each row of  A (h · W2) + b2.
  The kernel computes x · W1, then max (· + b1, 0) · W2, then the row log-softmax of · + b2 in three kernels, each over
  25 blocks of 2000 rows, and both aggregations on the host between them; the reference computes everything on the host.

  Over the extended reals a change of float format is the identity, and a product of matrices — a block at a time into a
  zero accumulator, or whole — is, entry by entry, the same finite sum; a row's maximum and a row's sum are folds over the
  same 64 entries whichever unit takes them. So each kernel's output array is the host's own layer of that kernel's input
  arrays (Proof/Product1, Product2, Softmax), the aggregation is literally the same function in both programs, and the
  two results are one function, `network`, of the arguments (Proof/KernelValue; for the reference by unfolding its run's
  term). No step uses that the inputs are finite: only that finite sums and folds of max do not depend on their order.

  The three frames: the two kernels' are the several-region run of each program, the reference's is its run with the
  result dropped. The idealization rewrote nothing, so there is nothing to preserve.
-/
import proofs.«167697_j25795573580231_1_alg».proof.Defs
import proofs.«167697_j25795573580231_1_alg».proof.Proof.Gen.Kernel
import proofs.«167697_j25795573580231_1_alg».proof.Proof.Gen.Kernel.Skeleton
import proofs.«167697_j25795573580231_1_alg».proof.Proof.Gen.Kernel.Launch
import proofs.«167697_j25795573580231_1_alg».proof.Proof.Gen.Kernel.Points
import proofs.«167697_j25795573580231_1_alg».proof.Proof.Gen.Kernel.Frame
import proofs.«167697_j25795573580231_1_alg».proof.Proof.Gen.KernelIdeal
import proofs.«167697_j25795573580231_1_alg».proof.Proof.Gen.KernelIdeal.Skeleton
import proofs.«167697_j25795573580231_1_alg».proof.Proof.Gen.KernelIdeal.Launch
import proofs.«167697_j25795573580231_1_alg».proof.Proof.Gen.KernelIdeal.Points
import proofs.«167697_j25795573580231_1_alg».proof.Proof.Gen.KernelIdeal.Frame
import proofs.«167697_j25795573580231_1_alg».proof.Proof.Gen.ReferenceIdeal
import proofs.«167697_j25795573580231_1_alg».proof.Proof.Gen.Pre_finite_inputs
import proofs.«167697_j25795573580231_1_alg».proof.Proof.RefRun
import proofs.«167697_j25795573580231_1_alg».proof.Proof.Layers
import proofs.«167697_j25795573580231_1_alg».proof.Proof.KernelValue
import Idealize.ShloMosaic.Adequacy
import Idealize.ShloMosaic.Init

set_option maxRecDepth 16384

noncomputable section

namespace Cert.Proof

open Idealize.ShloMosaic Idealize.SL.Sem
open Cert.ReferenceIdeal.Layers (network)

/-- The reference's result, as its run states it, is the network of its arguments: the run's term is the layers'
    composition, written out. -/
theorem reference_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v35 (F := Ideal) m c
      = network (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.ValueP.res_main_v35
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the result array at the network of the arguments, and the arguments agree. -/
theorem algebraic : Cert.algebraic_KernelIdeal_ReferenceIdeal := by
  intro m ρ m' ρ' _ hagree
  refine ⟨_, Cert.KernelIdeal.Whole.run_network m ρ, ?_⟩
  refine (θ_run Cert.ReferenceIdeal.defs _ _).mono (fun _ h c => ⟨(h c).1.trans ?_, (h c).2⟩)
    (Cert.ReferenceIdeal.ValueP.run (F := Ideal) m' ρ')
  rw [reference_eq m' c, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
